-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x512 : Shape := ⟨3, ![64, 2048, 512]⟩
abbrev S64x512 : Shape := ⟨2, ![64, 512]⟩
abbrev S512x512 : Shape := ⟨2, ![512, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S64x2048x512 : S_.BroadcastsInDim S64x2048x512 (![] : Fin 0 → Fin S64x2048x512.rank)
  reducesTo_S64x2048x512_S_d0_1_2 : S64x2048x512.ReducesTo [0, 1, 2] S_
  h_S_ : 0 < S_.numel
  bcast_S_S64x512 : S_.BroadcastsInDim S64x512 (![] : Fin 0 → Fin S64x512.rank)
  reducesTo_S64x512_S_d0_1 : S64x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S512x1 .f32) (main_arg7 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x1 .f32 := Host.absf main_arg6
  let main_cst_10 : FVec F S_ .f32 := constant S_ .f32 0x7F800000#32
  let main_v30 : FVec F S512x1 .f32 := broadcastInDim S512x1 ![] bcast_S_S512x1 main_cst_10
  let main_v31 : IVec S512x1 1 := cmpf .olt main_v29 main_v30
  let main_c_11 : IVec S_ 1 := constantI S_ 1 1#1
  let main_v32 : IVec S_ 1 := (fun x v => Host.reduce IntOp.andi x v reducesTo_S512x1_S_d0_1 h_S_) main_v31 main_c_11
  let main_v33 : IVec S_ 1 := andi main_v28 main_v32
  fn_part2 (F := F) main_arg7 main_v33

def fn {F : FTy → Type} [FloatOps F] (main_arg0 : FVec F S64x2048x512 .f32) (main_arg1 : FVec F S64x512 .f32) (main_arg2 : FVec F S512x512 .f32) (main_arg3 : FVec F S512 .f32) (main_arg4 : FVec F S512x512 .f32) (main_arg5 : FVec F S512 .f32) (main_arg6 : FVec F S512x1 .f32) (main_arg7 : FVec F S1 .f32) : IVec S_ 1 :=
  let main_v0 : FVec F S64x2048x512 .f32 := Host.absf main_arg0
  let main_cst : FVec F S_ .f32 := constant S_ .f32 0x7F800000#32
  let main_v1 : FVec F S64x2048x512 .f32 := broadcastInDim S64x2048x512 ![] bcast_S_S64x2048x512 main_cst
  let main_v2 : IVec S64x2048x512 1 := cmpf .olt main_v0 main_v1
  let main_c : IVec S_ 1 := constantI S_ 1 1#1
  let main_v3 : IVec S_ 1 := (fun x v => Host.reduce IntOp.andi x v reducesTo_S64x2048x512_S_d0_1_2 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S64x2048x512 : Shape := ⟨3, ![64, 2048, 512]⟩
abbrev S64x512 : Shape := ⟨2, ![64, 512]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x512 : Shape := ⟨2, ![1, 512]⟩
abbrev S64x1x512 : Shape := ⟨3, ![64, 1, 512]⟩
abbrev S1x2048x512 : Shape := ⟨3, ![1, 2048, 512]⟩
abbrev S1x1x512 : Shape := ⟨3, ![1, 1, 512]⟩
abbrev S2048x512 : Shape := ⟨2, ![2048, 512]⟩
abbrev S1x2048 : Shape := ⟨2, ![1, 2048]⟩
abbrev S1x1 : Shape := ⟨2, ![1, 1]⟩

abbrev nBuf : Space → Nat
  | .hbm => 16
  | .vmem => 14
  | .smem => 0
  | _ => 0

abbrev bufTy : (tb : Table) → Fin (tcTables nBuf tb) → BufTy
  | .hbm, ⟨0, _⟩ => ⟨S64x2048x512, .f32⟩
  | .hbm, ⟨1, _⟩ => ⟨S64x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S512x512, .bf16⟩
  | .hbm, ⟨9, _⟩ => ⟨S512x512, .bf16⟩
  | .hbm, ⟨10, _⟩ => ⟨S1x512, .f32⟩
  | .hbm, ⟨11, _⟩ => ⟨S1x512, .bf16⟩
  | .hbm, ⟨12, _⟩ => ⟨S64x512, .f32⟩
  | .hbm, ⟨13, _⟩ => ⟨S64x1x512, .f32⟩
  | .hbm, ⟨14, _⟩ => ⟨S64x1x512, .f32⟩
  | .hbm, ⟨15, _⟩ => ⟨S64x512, .f32⟩
  | .local _ .vmem, ⟨0, _⟩ => ⟨S64x512, .f32⟩
  | .local _ .vmem, ⟨1, _⟩ => ⟨S512x512, .bf16⟩
  | .local _ .vmem, ⟨2, _⟩ => ⟨S512, .f32⟩
  | .local _ .vmem, ⟨3, _⟩ => ⟨S64x512, .f32⟩
  | .local _ .vmem, ⟨4, _⟩ => ⟨S1x2048x512, .f32⟩
  | .local _ .vmem, ⟨5, _⟩ => ⟨S1x2048x512, .f32⟩
  | .local _ .vmem, ⟨6, _⟩ => ⟨S1x1x512, .f32⟩
  | .local _ .vmem, ⟨7, _⟩ => ⟨S1x1x512, .f32⟩
  | .local _ .vmem, ⟨8, _⟩ => ⟨S512x512, .bf16⟩
  | .local _ .vmem, ⟨9, _⟩ => ⟨S512, .f32⟩
  | .local _ .vmem, ⟨10, _⟩ => ⟨S1x512, .bf16⟩
  | .local _ .vmem, ⟨11, _⟩ => ⟨S1, .f32⟩
  | .local _ .vmem, ⟨12, _⟩ => ⟨S1x1x512, .f32⟩
  | .local _ .vmem, ⟨13, _⟩ => ⟨S1x1x512, .f32⟩
  | _, _ => ⟨S64x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1x1x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bitsLt_bf16_f32 : FTy.bits .bf16 < FTy.bits .f32
  shapeCasts_S512x1_S1x512 : S512x1.ShapeCasts S1x512
  inb_S64x512_S64x512_0_0 : ∀ a, (![0, 0] : Fin 2 → Nat) a + S64x512.size a ≤ S64x512.size a
  h_S64x512 : 0 < S64x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S64x512 : S1x512.Broadcasts S64x512
  bcast_S64x512_S64x1x512_0_2 : S64x512.BroadcastsInDim S64x1x512 (![0, 2] : Fin 2 → Fin S64x1x512.rank)
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  broadcasts_S1x512_S2048x512 : S1x512.Broadcasts S2048x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1_S1_0 : ∀ a, (![0] : Fin 1 → Nat) a + S1.size a ≤ S1.size a
  h_S1 : 0 < S1.numel
  shapeCasts_S1_S1x1 : S1.ShapeCasts S1x1
  broadcasts_S1x1_S1x2048 : S1x1.Broadcasts S1x2048
  reduces_S1x2048_S1 : S1x2048.Reduces [1] S1
  shapeCasts_S1x512_S1x1x512 : S1x512.ShapeCasts S1x1x512
  shapeCasts_S64x1x512_S64x512 : S64x1x512.ShapeCasts S64x512
  dot_S64x512_S512x512_S64x512_1_0_0_1_n_n_wf : DotDims.WF S64x512 S512x512 S64x512 [1] [0] [0] [1] [] []
  dot_S2048x512_S512x512_S2048x512_1_0_0_1_n_n_wf : DotDims.WF S2048x512 S512x512 S2048x512 [1] [0] [0] [1] [] []
  dot_S1x512_S2048x512_S1x2048_1_1_0_0_n_n_wf : DotDims.WF S1x512 S2048x512 S1x2048 [1] [1] [0] [0] [] []
  dot_S1x2048_S2048x512_S1x512_1_0_0_1_n_n_wf : DotDims.WF S1x2048 S2048x512 S1x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x512.size a ≤ S64x512.size a
  hwx0_0 : ∀ i : grid0.Coords, EltTy.bits .f32 = 32 ∨ (Rect.block (s := S64x512) S64x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x512.size a ≤ S64x512.size a
  hwx0_3 : ∀ i : grid0.Coords, EltTy.bits .f32 = 32 ∨ (Rect.block (s := S64x512) S64x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x512.size a ≤ S64x2048x512.size a
  hwx1_0 : ∀ i : grid1.Coords, EltTy.bits .f32 = 32 ∨ (Rect.block (s := S64x2048x512) S1x2048x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x512.size a ≤ S64x1x512.size a
  hwx1_1 : ∀ i : grid1.Coords, EltTy.bits .f32 = 32 ∨ (Rect.block (s := S64x1x512) S1x1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .bf16 = 32 ∨ (Rect.block (s := S512x512) S512x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512.size a ≤ S512.size a
  hwx1_3 : ∀ i : grid1.Coords, EltTy.bits .f32 = 32 ∨ (Rect.block (s := S512) S512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .bf16 = 32 ∨ (Rect.block (s := S1x512) S1x512.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1.size a ≤ S1.size a
  hwx1_5 : ∀ i : grid1.Coords, EltTy.bits .f32 = 32 ∨ (Rect.block (s := S1) S1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1x512.size a ≤ S64x1x512.size a
  hwx1_6 : ∀ i : grid1.Coords, EltTy.bits .f32 = 32 ∨ (Rect.block (s := S64x1x512) S1x1x512.size (cc1_transform_6 i) (hinb1_6 i)).WholeWords (EltTy.packing .f32)

variable [Facts₀]

def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S1x512_S2048x512_S1x2048_1_1_0_0_n_n : DotDims S1x512 S2048x512 S1x2048 where
  lhsContracting := [1]
  rhsContracting := [1]
  lhsNonContracting := [0]
  rhsNonContracting := [0]
  lhsBatch := []
  rhsBatch := []
  wf := dot_S1x512_S2048x512_S1x2048_1_1_0_0_n_n_wf
def dot_S1x2048_S2048x512_S1x512_1_0_0_1_n_n : DotDims S1x2048 S2048x512 S1x512 where
  lhsContracting := [1]
  rhsContracting := [0]
  lhsNonContracting := [0]
  rhsNonContracting := [1]
  lhsBatch := []
  rhsBatch := []
  wf := dot_S1x2048_S2048x512_S1x512_1_0_0_1_n_n_wf

abbrev win0_0 : Pipeline.Window sig grid0 :=
  Pipeline.Window.ofSpec (Memref.whole main_arg1) S64x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S64x512.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1x2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x1x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v6) S1x1x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S64x2048x512 : Shape := ⟨3, ![64, 2048, 512]⟩
abbrev S64x512 : Shape := ⟨2, ![64, 512]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x1x512 : Shape := ⟨3, ![1, 1, 512]⟩
abbrev S1x512 : Shape := ⟨2, ![1, 512]⟩
abbrev S64x1x512 : Shape := ⟨3, ![64, 1, 512]⟩
abbrev S64x2048x1 : Shape := ⟨3, ![64, 2048, 1]⟩
abbrev S1x1x1 : Shape := ⟨3, ![1, 1, 1]⟩
abbrev S_ : Shape := ⟨0, ![]⟩
abbrev S64x1 : Shape := ⟨2, ![64, 1]⟩
abbrev S64x1x1 : Shape := ⟨3, ![64, 1, 1]⟩

abbrev nBuf : Space → Nat
  | .hbm => 42
  | .vmem => 0
  | .smem => 0
  | _ => 0

abbrev bufTy : (tb : Table) → Fin (tcTables nBuf tb) → BufTy
  | .hbm, ⟨0, _⟩ => ⟨S64x2048x512, .f32⟩
  | .hbm, ⟨1, _⟩ => ⟨S64x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S64x2048x512, .f32⟩
  | .hbm, ⟨9, _⟩ => ⟨S1x1x512, .f32⟩
  | .hbm, ⟨10, _⟩ => ⟨S64x2048x512, .f32⟩
  | .hbm, ⟨11, _⟩ => ⟨S64x2048x512, .f32⟩
  | .hbm, ⟨12, _⟩ => ⟨S64x512, .f32⟩
  | .hbm, ⟨13, _⟩ => ⟨S1x512, .f32⟩
  | .hbm, ⟨14, _⟩ => ⟨S64x512, .f32⟩
  | .hbm, ⟨15, _⟩ => ⟨S64x512, .f32⟩
  | .hbm, ⟨16, _⟩ => ⟨S64x1x512, .f32⟩
  | .hbm, ⟨17, _⟩ => ⟨S64x2048x512, .f32⟩
  | .hbm, ⟨18, _⟩ => ⟨S64x2048x512, .f32⟩
  | .hbm, ⟨19, _⟩ => ⟨S64x2048x512, .f32⟩
  | .hbm, ⟨20, _⟩ => ⟨S64x2048x1, .f32⟩
  | .hbm, ⟨21, _⟩ => ⟨S1x1x1, .f32⟩
  | .hbm, ⟨22, _⟩ => ⟨S64x2048x1, .f32⟩
  | .hbm, ⟨23, _⟩ => ⟨S64x2048x1, .f32⟩
  | .hbm, ⟨24, _⟩ => ⟨S_, .f32⟩
  | .hbm, ⟨25, _⟩ => ⟨S64x1, .f32⟩
  | .hbm, ⟨26, _⟩ => ⟨S_, .f32⟩
  | .hbm, ⟨27, _⟩ => ⟨S64x1, .f32⟩
  | .hbm, ⟨28, _⟩ => ⟨S64x1, .f32⟩
  | .hbm, ⟨29, _⟩ => ⟨S64x1x1, .f32⟩
  | .hbm, ⟨30, _⟩ => ⟨S64x2048x1, .f32⟩
  | .hbm, ⟨31, _⟩ => ⟨S64x2048x1, .f32⟩
  | .hbm, ⟨32, _⟩ => ⟨S64x2048x1, .f32⟩
  | .hbm, ⟨33, _⟩ => ⟨S_, .f32⟩
  | .hbm, ⟨34, _⟩ => ⟨S64x1, .f32⟩
  | .hbm, ⟨35, _⟩ => ⟨S64x1x1, .f32⟩
  | .hbm, ⟨36, _⟩ => ⟨S64x2048x1, .f32⟩
  | .hbm, ⟨37, _⟩ => ⟨S64x2048x1, .f32⟩
  | .hbm, ⟨38, _⟩ => ⟨S64x2048x512, .f32⟩
  | .hbm, ⟨39, _⟩ => ⟨S64x2048x512, .f32⟩
  | .hbm, ⟨40, _⟩ => ⟨S_, .f32⟩
  | .hbm, ⟨41, _⟩ => ⟨S64x512, .f32⟩
  | _, _ => ⟨S64x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S64x2048x512_0_1_2 : S1x1x512.BroadcastsInDim S64x2048x512 (![0, 1, 2] : Fin 3 → Fin S64x2048x512.rank)
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  bcast_S64x512_S64x1x512_0_2 : S64x512.BroadcastsInDim S64x1x512 (![0, 2] : Fin 2 → Fin S64x1x512.rank)
  bcast_S64x1x512_S64x2048x512_0_1_2 : S64x1x512.BroadcastsInDim S64x2048x512 (![0, 1, 2] : Fin 3 → Fin S64x2048x512.rank)
  bcast_S1_S1x1x1_2 : S1.BroadcastsInDim S1x1x1 (![2] : Fin 1 → Fin S1x1x1.rank)
  bcast_S1x1x1_S64x2048x1_0_1_2 : S1x1x1.BroadcastsInDim S64x2048x1 (![0, 1, 2] : Fin 3 → Fin S64x2048x1.rank)
  reducesTo_S64x2048x1_S64x1_d1 : S64x2048x1.ReducesTo [1] S64x1
  h_S_ : 0 < S_.numel
  bcast_S_S64x1 : S_.BroadcastsInDim S64x1 (![] : Fin 0 → Fin S64x1.rank)
  bcast_S64x1_S64x1x1_0_2 : S64x1.BroadcastsInDim S64x1x1 (![0, 2] : Fin 2 → Fin S64x1x1.rank)
  bcast_S64x1x1_S64x2048x1_0_1_2 : S64x1x1.BroadcastsInDim S64x2048x1 (![0, 1, 2] : Fin 3 → Fin S64x2048x1.rank)
  bcast_S64x2048x1_S64x2048x512_0_1_2 : S64x2048x1.BroadcastsInDim S64x2048x512 (![0, 1, 2] : Fin 3 → Fin S64x2048x512.rank)
  reducesTo_S64x2048x512_S64x512_d1 : S64x2048x512.ReducesTo [1] S64x512
  dot_S64x2048x512_S512x512_S64x2048x512_2_0_01_1_n_n_wf : DotDims.WF S64x2048x512 S512x512 S64x2048x512 [2] [0] [0, 1] [1] [] []
  dot_S64x512_S512x512_S64x512_1_0_0_1_n_n_wf : DotDims.WF S64x512 S512x512 S64x512 [1] [0] [0] [1] [] []
  dot_S64x2048x512_S512x1_S64x2048x1_2_0_01_1_n_n_wf : DotDims.WF S64x2048x512 S512x1 S64x2048x1 [2] [0] [0, 1] [1] [] []

variable [Facts₀]

def dot_S64x2048x512_S512x512_S64x2048x512_2_0_01_1_n_n : DotDims S64x2048x512 S512x512 S64x2048x512 where
  lhsContracting := [2]
  rhsContracting := [0]
  lhsNonContracting := [0, 1]
  rhsNonContracting := [1]
  lhsBatch := []
  rhsBatch := []
  wf := dot_S64x2048x512_S512x512_S64x2048x512_2_0_01_1_n_n_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S64x2048x512_S512x1_S64x2048x1_2_0_01_1_n_n : DotDims S64x2048x512 S512x1 S64x2048x1 where
  lhsContracting := [2]
  rhsContracting := [0]
  lhsNonContracting := [0, 1]
  rhsNonContracting := [1]
  lhsBatch := []
  rhsBatch := []
  wf := dot_S64x2048x512_S512x1_S64x2048x1_2_0_01_1_n_n_wf

class Facts : Prop extends Facts₀ where

variable [Facts]
-- ==== Proof.MatmulAt.lean ====
/-
  The idealized kernel's four matrix products, each read at one entry of its result.

  On the extended reals a matrix product into a zero accumulator is, at an entry of the result, the plain sum over the
  contracted coordinate of the products of the two operands' entries: no rounding, no order of accumulation. The four
  products of this kernel, with their contracted axes:
    the hidden state's projection   [64, 512] × [512, 512]   over the 512 input features,
    the context rows' projection    [2048, 512] × [512, 512] over the 512 input features,
    the scores against the scoring row   [1, 512] × [2048, 512], both contracted on their minor axis (the 512 units), so
      that entry (0, t) pairs the scoring row with row t of the scores,
    the weighted sum of the context rows [1, 2048] × [2048, 512] over the 2048 time steps.
  Each lemma names the operands' entries by coordinates, so that later steps rewrite the sum term by term.
-/
import proofs.«126080_j25262997635763_2_alg».proof.Proof.Gen.KernelIdeal
import Idealize.ShloMosaic.PureOps.Ideal.Laws
import Idealize.ShloMosaic.Lib.ValueIdx

noncomputable section

namespace Cert.Attention

open Idealize.ShloMosaic Idealize.ShloMosaic.ValueIdx Cert.KernelIdeal

/-- The hidden state's projection: rows of `h` against columns of the weight matrix. -/
abbrev dotHidden := dot_S64x512_S512x512_S64x512_1_0_0_1_n_n
/-- The context rows' projection. -/
abbrev dotContext := dot_S2048x512_S512x512_S2048x512_1_0_0_1_n_n
/-- The scoring row against every row of scores. -/
abbrev dotLogits := dot_S1x512_S2048x512_S1x2048_1_1_0_0_n_n
/-- The attention weights against the context rows. -/
abbrev dotWeighted := dot_S1x2048_S2048x512_S1x512_1_0_0_1_n_n

/-! ## Which entries of the operands an entry of each product pairs

For a result index `i` and a contraction index `q`: the left operand is read at `i`'s coordinate on its kept axis, the
right operand at `i`'s coordinate on its kept axis, and both at `q` on the contracted one. -/

theorem hidden_lhs0 (i : S64x512.Idx) (q : dotHidden.contr.Idx) : (dotHidden.lhsIdx i q 0).val = (i 0).val := by
  unfold DotDims.lhsIdx
  rw [dif_neg (show ¬(0 : Fin S64x512.rank) ∈ dotHidden.lhsBatch by decide), dif_pos (show (0 : Fin S64x512.rank) ∈ dotHidden.lhsNonContracting by decide)]
  rfl
theorem hidden_rhs1 (i : S64x512.Idx) (q : dotHidden.contr.Idx) : (dotHidden.rhsIdx i q 1).val = (i 1).val := by
  unfold DotDims.rhsIdx
  rw [dif_neg (show ¬(1 : Fin S512x512.rank) ∈ dotHidden.rhsBatch by decide), dif_pos (show (1 : Fin S512x512.rank) ∈ dotHidden.rhsNonContracting by decide)]
  rfl

theorem context_lhs0 (i : S2048x512.Idx) (q : dotContext.contr.Idx) : (dotContext.lhsIdx i q 0).val = (i 0).val := by
  unfold DotDims.lhsIdx
  rw [dif_neg (show ¬(0 : Fin S2048x512.rank) ∈ dotContext.lhsBatch by decide), dif_pos (show (0 : Fin S2048x512.rank) ∈ dotContext.lhsNonContracting by decide)]
  rfl
theorem context_rhs1 (i : S2048x512.Idx) (q : dotContext.contr.Idx) : (dotContext.rhsIdx i q 1).val = (i 1).val := by
  unfold DotDims.rhsIdx
  rw [dif_neg (show ¬(1 : Fin S512x512.rank) ∈ dotContext.rhsBatch by decide), dif_pos (show (1 : Fin S512x512.rank) ∈ dotContext.rhsNonContracting by decide)]
  rfl

theorem logits_lhs0 (i : S1x2048.Idx) (q : dotLogits.contr.Idx) : (dotLogits.lhsIdx i q 0).val = (i 0).val := by
  unfold DotDims.lhsIdx
  rw [dif_neg (show ¬(0 : Fin S1x512.rank) ∈ dotLogits.lhsBatch by decide), dif_pos (show (0 : Fin S1x512.rank) ∈ dotLogits.lhsNonContracting by decide)]
  rfl
theorem logits_rhs0 (i : S1x2048.Idx) (q : dotLogits.contr.Idx) : (dotLogits.rhsIdx i q 0).val = (i 1).val := by
  unfold DotDims.rhsIdx
  rw [dif_neg (show ¬(0 : Fin S2048x512.rank) ∈ dotLogits.rhsBatch by decide), dif_pos (show (0 : Fin S2048x512.rank) ∈ dotLogits.rhsNonContracting by decide)]
  rfl

theorem weighted_lhs0 (i : S1x512.Idx) (q : dotWeighted.contr.Idx) : (dotWeighted.lhsIdx i q 0).val = (i 0).val := by
  unfold DotDims.lhsIdx
  rw [dif_neg (show ¬(0 : Fin S1x2048.rank) ∈ dotWeighted.lhsBatch by decide), dif_pos (show (0 : Fin S1x2048.rank) ∈ dotWeighted.lhsNonContracting by decide)]
  rfl
theorem weighted_rhs1 (i : S1x512.Idx) (q : dotWeighted.contr.Idx) : (dotWeighted.rhsIdx i q 1).val = (i 1).val := by
  unfold DotDims.rhsIdx
  rw [dif_neg (show ¬(1 : Fin S2048x512.rank) ∈ dotWeighted.rhsBatch by decide), dif_pos (show (1 : Fin S2048x512.rank) ∈ dotWeighted.rhsNonContracting by decide)]
  rfl

/-! ## The products at an entry -/

/-- Entry (b, u) of the hidden state's projection is the sum over the input feature k of h[b, k] · W[k, u]. -/
theorem matmul_hidden_apply (l : FVec Ideal S64x512 .bf16) (r : FVec Ideal S512x512 .bf16) (b : Fin 64) (u : Fin 512) :
    matmul dotHidden none l r (constant (F := Ideal) S64x512 .f32 0x00000000#32) (ix2 b u)
      = ∑ k : Fin 512, l (ix2 b k) * r (ix2 k u) := by
  simp only [matmul]
  rw [Ideal.matmul_constant_zero_apply, ← Equiv.sum_comp (contrEquiv1 dotHidden 512 rfl rfl).symm]
  refine Finset.sum_congr rfl fun k _ => ?_
  have hk := contrEquiv1_symm_val dotHidden 512 rfl rfl k
  have el : dotHidden.lhsIdx (ix2 b u) ((contrEquiv1 dotHidden 512 rfl rfl).symm k) = ix2 b k := funext fun a => Fin.ext (by
    match a with
    | ⟨0, _⟩ => exact hidden_lhs0 _ _
    | ⟨1, _⟩ => exact (dotHidden.lhsIdx_val_of_single rfl _ _).trans hk)
  have er : dotHidden.rhsIdx (ix2 b u) ((contrEquiv1 dotHidden 512 rfl rfl).symm k) = ix2 k u := funext fun a => Fin.ext (by
    match a with
    | ⟨0, _⟩ => exact (dotHidden.rhsIdx_val_of_single rfl _ _).trans hk
    | ⟨1, _⟩ => exact hidden_rhs1 _ _)
  rw [el, er]

/-- Entry (t, u) of the context rows' projection is the sum over the input feature k of c[t, k] · W[k, u]. -/
theorem matmul_context_apply (l : FVec Ideal S2048x512 .bf16) (r : FVec Ideal S512x512 .bf16) (t : Fin 2048) (u : Fin 512) :
    matmul dotContext none l r (constant (F := Ideal) S2048x512 .f32 0x00000000#32) (ix2 t u)
      = ∑ k : Fin 512, l (ix2 t k) * r (ix2 k u) := by
  simp only [matmul]
  rw [Ideal.matmul_constant_zero_apply, ← Equiv.sum_comp (contrEquiv1 dotContext 512 rfl rfl).symm]
  refine Finset.sum_congr rfl fun k _ => ?_
  have hk := contrEquiv1_symm_val dotContext 512 rfl rfl k
  have el : dotContext.lhsIdx (ix2 t u) ((contrEquiv1 dotContext 512 rfl rfl).symm k) = ix2 t k := funext fun a => Fin.ext (by
    match a with
    | ⟨0, _⟩ => exact context_lhs0 _ _
    | ⟨1, _⟩ => exact (dotContext.lhsIdx_val_of_single rfl _ _).trans hk)
  have er : dotContext.rhsIdx (ix2 t u) ((contrEquiv1 dotContext 512 rfl rfl).symm k) = ix2 k u := funext fun a => Fin.ext (by
    match a with
    | ⟨0, _⟩ => exact (dotContext.rhsIdx_val_of_single rfl _ _).trans hk
    | ⟨1, _⟩ => exact context_rhs1 _ _)
  rw [el, er]

/-- Entry (z, t) of the logits row is the sum over the unit u of v[z, u] · score[t, u]: both operands are contracted on
    their minor axis. -/
theorem matmul_logits_apply (l : FVec Ideal S1x512 .bf16) (r : FVec Ideal S2048x512 .bf16) (z : Fin 1) (t : Fin 2048) :
    matmul dotLogits none l r (constant (F := Ideal) S1x2048 .f32 0x00000000#32) (ix2 z t)
      = ∑ u : Fin 512, l (ix2 z u) * r (ix2 t u) := by
  simp only [matmul]
  rw [Ideal.matmul_constant_zero_apply, ← Equiv.sum_comp (contrEquiv1 dotLogits 512 rfl rfl).symm]
  refine Finset.sum_congr rfl fun u _ => ?_
  have hu := contrEquiv1_symm_val dotLogits 512 rfl rfl u
  have el : dotLogits.lhsIdx (ix2 z t) ((contrEquiv1 dotLogits 512 rfl rfl).symm u) = ix2 z u := funext fun a => Fin.ext (by
    match a with
    | ⟨0, _⟩ => exact logits_lhs0 _ _
    | ⟨1, _⟩ => exact (dotLogits.lhsIdx_val_of_single rfl _ _).trans hu)
  have er : dotLogits.rhsIdx (ix2 z t) ((contrEquiv1 dotLogits 512 rfl rfl).symm u) = ix2 t u := funext fun a => Fin.ext (by
    match a with
    | ⟨0, _⟩ => exact logits_rhs0 _ _
    | ⟨1, _⟩ => exact (dotLogits.rhsIdx_val_of_single rfl _ _).trans hu)
  rw [el, er]

/-- Entry (z, d) of the weighted sum is the sum over the time step t of a[z, t] · c[t, d]. -/
theorem matmul_weighted_apply (l : FVec Ideal S1x2048 .bf16) (r : FVec Ideal S2048x512 .bf16) (z : Fin 1) (d : Fin 512) :
    matmul dotWeighted none l r (constant (F := Ideal) S1x512 .f32 0x00000000#32) (ix2 z d)
      = ∑ t : Fin 2048, l (ix2 z t) * r (ix2 t d) := by
  simp only [matmul]
  rw [Ideal.matmul_constant_zero_apply, ← Equiv.sum_comp (contrEquiv1 dotWeighted 2048 rfl rfl).symm]
  refine Finset.sum_congr rfl fun t _ => ?_
  have ht := contrEquiv1_symm_val dotWeighted 2048 rfl rfl t
  have el : dotWeighted.lhsIdx (ix2 z d) ((contrEquiv1 dotWeighted 2048 rfl rfl).symm t) = ix2 z t := funext fun a => Fin.ext (by
    match a with
    | ⟨0, _⟩ => exact weighted_lhs0 _ _
    | ⟨1, _⟩ => exact (dotWeighted.lhsIdx_val_of_single rfl _ _).trans ht)
  have er : dotWeighted.rhsIdx (ix2 z d) ((contrEquiv1 dotWeighted 2048 rfl rfl).symm t) = ix2 t d := funext fun a => Fin.ext (by
    match a with
    | ⟨0, _⟩ => exact (dotWeighted.rhsIdx_val_of_single rfl _ _).trans ht
    | ⟨1, _⟩ => exact weighted_rhs1 _ _)
  rw [el, er]

end Cert.Attention

end
-- ==== Proof.Spec.lean ====
/-
  Additive attention over one batch entry, on the extended reals: the function both programs compute.

  For a batch entry with context rows C[t, ·] (2048 time steps of 512 features) and hidden state projected to ph[u]:
    score[t, u] = tanh((Σ_k C[t, k] · W1[k, u] + b1[u]) + ph[u])          the two projections added, squashed
    logit[t]    = (Σ_u v[u] · score[t, u]) + vb                            one number per time step
    weight[t]   = exp(logit[t] − M) / Σ_t' exp(logit[t'] − M)              the softmax over time, M the row's maximum
    out[d]      = Σ_t weight[t] · C[t, d]                                  the weighted sum of the context rows
  and ph[u] = Σ_k h[k] · W2[k, u] + b2[u] is the hidden state's own projection.

  Everything is stated over plain functions of coordinates, so that the same function is met by a kernel working on one
  [2048, 512] block at a time and by a program working on the whole [64, 2048, 512] array. The row's maximum is the fold
  of `max` over the time steps from the starting value both programs use (the bit pattern of −∞); nothing below needs to
  know what that starting value is, nor that any entry is finite: the two programs differ only by the order of the two
  factors in the logit's products, by an extra `max` with the starting value around the reference's maximum, and by sums
  that start from zero.
-/
import Idealize.ShloMosaic.PureOps.Ideal
import Idealize.ShloMosaic.Lib.ValueIdx

noncomputable section

namespace Cert.Attention

open Idealize.ShloMosaic

/-- A row times a weight matrix, plus a bias: entry u of the projection. -/
def projRow (X : Fin 512 → EReal) (W : Fin 512 → Fin 512 → EReal) (bias : Fin 512 → EReal) (u : Fin 512) : EReal :=
  (∑ k : Fin 512, X k * W k u) + bias u

/-- The score of time step t and unit u: the context row's projection plus the hidden state's, through tanh. -/
def score (C : Fin 2048 → Fin 512 → EReal) (W1 : Fin 512 → Fin 512 → EReal) (b1 : Fin 512 → EReal) (ph : Fin 512 → EReal)
    (t : Fin 2048) (u : Fin 512) : EReal :=
  Ideal.tanh (projRow (C t) W1 b1 u + ph u)

/-- The logit of time step t: the scoring vector against the row of scores, plus its bias. -/
def logit (S : Fin 2048 → Fin 512 → EReal) (v : Fin 512 → EReal) (vb : EReal) (t : Fin 2048) : EReal :=
  (∑ u : Fin 512, v u * S t u) + vb

/-- The maximum of a row of logits: the fold of `max` over the time steps, from the pattern of −∞. -/
def rowMax (L : Fin 2048 → EReal) : EReal :=
  (Finset.univ : Finset (Fin 2048)).fold max (Ideal.ofBits .f32 0xFF800000#32) L

/-- The softmax weight of time step t: the shifted exponential over the sum of the shifted exponentials. -/
def softmaxRow (L : Fin 2048 → EReal) (t : Fin 2048) : EReal :=
  Ideal.div (Ideal.exp (L t - rowMax L)) (∑ t' : Fin 2048, Ideal.exp (L t' - rowMax L))

/-- Feature d of the attended context: the context rows weighted by the softmax of their logits. -/
def attend (C : Fin 2048 → Fin 512 → EReal) (W1 : Fin 512 → Fin 512 → EReal) (b1 : Fin 512 → EReal) (ph : Fin 512 → EReal)
    (v : Fin 512 → EReal) (vb : EReal) (d : Fin 512) : EReal :=
  ∑ t : Fin 2048, softmaxRow (logit (score C W1 b1 ph) v vb) t * C t d

/-- Entry (b, d) of the result, as one function of the eight argument arrays: the attended context of batch entry b —
    its context rows, the shared weights, its hidden state's projection — at feature d. -/
def resultAt (c : (⟨3, ![64, 2048, 512]⟩ : Shape).Idx → EReal) (h : (⟨2, ![64, 512]⟩ : Shape).Idx → EReal)
    (W1 : (⟨2, ![512, 512]⟩ : Shape).Idx → EReal) (b1 : (⟨1, ![512]⟩ : Shape).Idx → EReal)
    (W2 : (⟨2, ![512, 512]⟩ : Shape).Idx → EReal) (b2 : (⟨1, ![512]⟩ : Shape).Idx → EReal)
    (v : (⟨2, ![512, 1]⟩ : Shape).Idx → EReal) (vb : (⟨1, ![1]⟩ : Shape).Idx → EReal) (b : Fin 64) (d : Fin 512) : EReal :=
  attend (fun t k => c (ValueIdx.ix3 b t k)) (fun k u => W1 (ValueIdx.ix2 k u)) (fun u => b1 (ValueIdx.ix1 u))
    (projRow (fun k => h (ValueIdx.ix2 b k)) (fun k u => W2 (ValueIdx.ix2 k u)) (fun u => b2 (ValueIdx.ix1 u)))
    (fun u => v (ValueIdx.ix2 u (0 : Fin 1))) (vb (ValueIdx.ix1 (0 : Fin 1))) d

/-- The result array: `resultAt` at the index's two coordinates. -/
def result (c : (⟨3, ![64, 2048, 512]⟩ : Shape).Idx → EReal) (h : (⟨2, ![64, 512]⟩ : Shape).Idx → EReal)
    (W1 : (⟨2, ![512, 512]⟩ : Shape).Idx → EReal) (b1 : (⟨1, ![512]⟩ : Shape).Idx → EReal)
    (W2 : (⟨2, ![512, 512]⟩ : Shape).Idx → EReal) (b2 : (⟨1, ![512]⟩ : Shape).Idx → EReal)
    (v : (⟨2, ![512, 1]⟩ : Shape).Idx → EReal) (vb : (⟨1, ![1]⟩ : Shape).Idx → EReal) :
    (⟨2, ![64, 512]⟩ : Shape).Idx → EReal :=
  fun i => resultAt c h W1 b1 W2 b2 v vb (i 0) (i 1)

/-- A fold of `max` is at least its starting value, so taking `max` with the starting value once more changes nothing:
    the reference's maximum, which does exactly that, is the plain fold. -/
theorem max_fold_max_self {ι : Type} (s : Finset ι) (a : EReal) (f : ι → EReal) :
    max a (s.fold max a f) = s.fold max a f :=
  max_eq_right (Finset.le_fold_max a |>.mpr (Or.inl le_rfl))

end Cert.Attention

end
-- ==== Proof.KernelStages.lean ====
/-
  The two kernel bodies, read at an entry of what they store.

  The first body stores, whole, the hidden states' projection: entry (b, u) is Σ_k h[b, k] · W2[k, u] + b2[u].

  The second body works on one batch entry: a [1, 2048, 512] block of context rows, that entry's [1, 1, 512] row of the
  hidden state's projection, and the shared weights. Its arithmetic is cut here into four stages — the scores of every
  (time step, unit), the row of logits, the softmax of that row, the weighted sum of the context rows — and the body's
  stored value is their composition, as printed. Each stage is read at an entry by coordinates: a cast to the matmul
  format is the identity on the extended reals, a re-laying reads the same entry under other coordinates, a product
  into a zero accumulator is a plain sum, a lane reduction from −∞ is the fold of `max` and one from zero the sum. Put
  together, entry (0, 0, d) of what the second body stores is the specification's attended context at feature d.
-/
import proofs.«126080_j25262997635763_2_alg».proof.Proof.Gen.KernelIdeal.Skeleton
import proofs.«126080_j25262997635763_2_alg».proof.Proof.MatmulAt
import proofs.«126080_j25262997635763_2_alg».proof.Proof.Spec
import Idealize.ShloMosaic.Lib.Pipeline.Value
import Idealize.ShloMosaic.Lib.ValueLayout
import Idealize.ShloMosaic.PureOps.Ideal.Laws

noncomputable section

namespace Cert.Attention

open Idealize.ShloMosaic Idealize.ShloMosaic.ValueIdx Cert.KernelIdeal Cert.KernelIdeal.Facts₀

/-! ## Small readings -/

theorem tanh_apply {s : Shape} (x : FVec Ideal s .f32) (i : s.Idx) : tanh x i = Ideal.tanh (x i) := rfl
theorem exp_apply {s : Shape} (x : FVec Ideal s .f32) (i : s.Idx) : exp x i = Ideal.exp (x i) := rfl

/-- A one-entry vector laid as [1, 1] and repeated along the 2048 lanes reads, at every lane, its one entry. -/
theorem keepdims_apply (y : FVec Ideal S1 .f32) (t : Fin 2048) :
    broadcastTo S1x2048 (shapeCast S1x1 y shapeCasts_S1_S1x1) broadcasts_S1x1_S1x2048 (ix2 (0 : Fin 1) t) = y (ix1 (0 : Fin 1)) := by
  refine (broadcastTo_apply _ broadcasts_S1x1_S1x2048 (ix2 (0 : Fin 1) t) (ix2 (0 : Fin 1) (0 : Fin 1)) fun ax => ?_).trans ?_
  · match ax with
    | ⟨0, _⟩ => rfl
    | ⟨1, _⟩ => rfl
  · exact shapeCast_a_1a_apply y shapeCasts_S1_S1x1 (0 : Fin 1) (0 : Fin 1)

/-- The row's index with the time step t put back on the reduced axis is (0, t). -/
theorem lift_row (t : Fin 2048) : reduces_S1x2048_S1.lift (ix1 (0 : Fin 1)) t = ix2 (0 : Fin 1) t :=
  funext fun a => Fin.ext (by
    match a with
    | ⟨0, _⟩ => rfl
    | ⟨1, _⟩ => rfl)

/-- The lane maximum of a [1, 2048] row, from the pattern of −∞: the fold of `max` over the row's entries. -/
theorem rowmax_apply (x : FVec Ideal S1x2048 .f32) :
    multiReduction .maximumf [1] S1 x 0xFF800000#32 reduces_S1x2048_S1 (.inl rfl) rfl (ix1 (0 : Fin 1))
      = rowMax (fun t => x (ix2 (0 : Fin 1) t)) :=
  (Ideal.multiReduction_maximumf_single x 0xFF800000#32 reduces_S1x2048_S1 (.inl rfl) rfl (ix1 (0 : Fin 1))).trans (by
    unfold rowMax
    exact congrArg (fun f => Finset.fold max _ f Finset.univ) (funext fun t => congrArg x (lift_row t)))

/-- The lane sum of a [1, 2048] row, from zero: the sum of the row's entries. -/
theorem rowsum_apply (x : FVec Ideal S1x2048 .f32) :
    multiReduction .add [1] S1 x 0x00000000#32 reduces_S1x2048_S1 (.inl rfl) rfl (ix1 (0 : Fin 1))
      = ∑ t : Fin 2048, x (ix2 (0 : Fin 1) t) :=
  (Ideal.multiReduction_add_single x 0x00000000#32 reduces_S1x2048_S1 (.inl rfl) rfl (ix1 (0 : Fin 1))).trans
    (Finset.sum_congr rfl fun t _ => congrArg x (lift_row t))

/-! ## The first body: the hidden states' projection -/

/-- Entry (b, u) of what the first body stores is row b of the hidden states against column u of the weights, plus the
    bias at u. -/
theorem k0_pay1_apply (x0 : FVec Ideal S64x512 .f32) (x1 : FVec Ideal S512x512 .bf16) (x2 : FVec Ideal S512 .f32)
    (b : Fin 64) (u : Fin 512) :
    Gen.k0_pay1 (F := Ideal) x0 x1 x2 (ix2 b u)
      = projRow (fun k => x0 (ix2 b k)) (fun k u => x1 (ix2 k u)) (fun u => x2 (ix1 u)) u := by
  show addf (matmul dotHidden none (truncf .bf16 x0 bitsLt_bf16_f32) (shapeCast S512x512 x1 shapeCasts_S512x512_S512x512)
      (constant (F := Ideal) S64x512 .f32 0x00000000#32))
    (broadcastTo S64x512 (shapeCast S1x512 x2 shapeCasts_S512_S1x512) broadcasts_S1x512_S64x512) (ix2 b u) = _
  rw [addf_apply, matmul_hidden_apply, broadcastTo_1b_ab_apply, shapeCast_a_1a_apply, shapeCast_self]
  rfl

/-! ## The second body, in four stages -/

/-- The scores of one block: both projections added, through tanh. -/
def blockScores (v0 : FVec Ideal S1x2048x512 .f32) (v3 : FVec Ideal S512x512 .bf16) (v6 : FVec Ideal S512 .f32)
    (v10 : FVec Ideal S1x1x512 .f32) : FVec Ideal S2048x512 .f32 :=
  tanh (addf (addf (matmul dotContext none
        (truncf .bf16 (shapeCast S2048x512 v0 shapeCasts_S1x2048x512_S2048x512) bitsLt_bf16_f32)
        (shapeCast S512x512 v3 shapeCasts_S512x512_S512x512) (constant (F := Ideal) S2048x512 .f32 0x00000000#32))
      (broadcastTo S2048x512 (shapeCast S1x512 v6 shapeCasts_S512_S1x512) broadcasts_S1x512_S2048x512))
    (broadcastTo S2048x512 (shapeCast S1x512 v10 shapeCasts_S1x1x512_S1x512) broadcasts_S1x512_S2048x512))

/-- The row of logits from the scores. -/
def blockLogits (sc : FVec Ideal S2048x512 .f32) (v16 : FVec Ideal S1x512 .bf16) (v19 : FVec Ideal S1 .f32) :
    FVec Ideal S1x2048 .f32 :=
  addf (matmul dotLogits none (shapeCast S1x512 v16 shapeCasts_S1x512_S1x512) (truncf .bf16 sc bitsLt_bf16_f32)
      (constant (F := Ideal) S1x2048 .f32 0x00000000#32))
    (broadcastTo S1x2048 (shapeCast S1x1 v19 shapeCasts_S1_S1x1) broadcasts_S1x1_S1x2048)

/-- The exponentials of a row shifted by its maximum. -/
def blockExp (lg : FVec Ideal S1x2048 .f32) : FVec Ideal S1x2048 .f32 :=
  exp (subf lg (broadcastTo S1x2048 (shapeCast S1x1
    (multiReduction .maximumf [1] S1 lg 0xFF800000#32 reduces_S1x2048_S1 (.inl rfl) rfl) shapeCasts_S1_S1x1) broadcasts_S1x1_S1x2048))

/-- The softmax of a row of logits. -/
def blockSoftmax (lg : FVec Ideal S1x2048 .f32) : FVec Ideal S1x2048 .f32 :=
  divf (blockExp lg) (broadcastTo S1x2048 (shapeCast S1x1
    (multiReduction .add [1] S1 (blockExp lg) 0x00000000#32 reduces_S1x2048_S1 (.inl rfl) rfl) shapeCasts_S1_S1x1) broadcasts_S1x1_S1x2048)

/-- The context rows weighted by a row of weights, laid as the [1, 1, 512] output block. -/
def blockWeighted (w : FVec Ideal S1x2048 .f32) (v0 : FVec Ideal S1x2048x512 .f32) : FVec Ideal S1x1x512 .f32 :=
  shapeCast S1x1x512 (matmul dotWeighted none (truncf .bf16 w bitsLt_bf16_f32)
      (truncf .bf16 (shapeCast S2048x512 v0 shapeCasts_S1x2048x512_S2048x512) bitsLt_bf16_f32)
      (constant (F := Ideal) S1x512 .f32 0x00000000#32)) shapeCasts_S1x512_S1x1x512

/-- What the second body stores is the four stages composed: the printed arithmetic, regrouped. -/
theorem k1_pay1_eq_stages (v0 : FVec Ideal S1x2048x512 .f32) (v3 : FVec Ideal S512x512 .bf16) (v6 : FVec Ideal S512 .f32)
    (v10 : FVec Ideal S1x1x512 .f32) (v16 : FVec Ideal S1x512 .bf16) (v19 : FVec Ideal S1 .f32) :
    Gen.k1_pay1 (F := Ideal) v0 v3 v6 v10 v16 v19
      = blockWeighted (blockSoftmax (blockLogits (blockScores v0 v3 v6 v10) v16 v19)) v0 := rfl

/-- Score (t, u) of a block is the specification's score of the block's rows. -/
theorem blockScores_apply (v0 : FVec Ideal S1x2048x512 .f32) (v3 : FVec Ideal S512x512 .bf16) (v6 : FVec Ideal S512 .f32)
    (v10 : FVec Ideal S1x1x512 .f32) (t : Fin 2048) (u : Fin 512) :
    blockScores v0 v3 v6 v10 (ix2 t u)
      = score (fun t k => v0 (ix3 (0 : Fin 1) t k)) (fun k u => v3 (ix2 k u)) (fun u => v6 (ix1 u))
          (fun u => v10 (ix3 (0 : Fin 1) (0 : Fin 1) u)) t u := by
  unfold blockScores
  rw [tanh_apply, addf_apply, addf_apply, matmul_context_apply, broadcastTo_1b_ab_apply, broadcastTo_1b_ab_apply,
    shapeCast_a_1a_apply, shapeCast_1ab_ab_apply, shapeCast_self]
  simp only [truncf_apply, shapeCast_1ab_ab_apply]
  rfl

/-- Logit t of a block's row: the scoring row against row t of the scores, plus the bias. -/
theorem blockLogits_apply (sc : FVec Ideal S2048x512 .f32) (v16 : FVec Ideal S1x512 .bf16) (v19 : FVec Ideal S1 .f32)
    (t : Fin 2048) :
    blockLogits sc v16 v19 (ix2 (0 : Fin 1) t)
      = logit (fun t u => sc (ix2 t u)) (fun u => v16 (ix2 (0 : Fin 1) u)) (v19 (ix1 (0 : Fin 1))) t := by
  unfold blockLogits
  rw [addf_apply, matmul_logits_apply, keepdims_apply, shapeCast_self]
  rfl

/-- Entry t of the shifted exponentials. -/
theorem blockExp_apply (lg : FVec Ideal S1x2048 .f32) (t : Fin 2048) :
    blockExp lg (ix2 (0 : Fin 1) t)
      = Ideal.exp (lg (ix2 (0 : Fin 1) t) - rowMax (fun t' => lg (ix2 (0 : Fin 1) t'))) := by
  unfold blockExp
  rw [exp_apply, subf_apply, keepdims_apply, rowmax_apply]

/-- Weight t of a block's softmax is the specification's softmax of the row. -/
theorem blockSoftmax_apply (lg : FVec Ideal S1x2048 .f32) (t : Fin 2048) :
    blockSoftmax lg (ix2 (0 : Fin 1) t) = softmaxRow (fun t' => lg (ix2 (0 : Fin 1) t')) t := by
  unfold blockSoftmax softmaxRow
  rw [divf_apply, keepdims_apply, rowsum_apply, blockExp_apply]
  simp only [blockExp_apply]

/-- Entry (0, 0, d) of the output block: the weights against column d of the block's context rows. -/
theorem blockWeighted_apply (w : FVec Ideal S1x2048 .f32) (v0 : FVec Ideal S1x2048x512 .f32) (d : Fin 512) :
    blockWeighted w v0 (ix3 (0 : Fin 1) (0 : Fin 1) d) = ∑ t : Fin 2048, w (ix2 (0 : Fin 1) t) * v0 (ix3 (0 : Fin 1) t d) := by
  unfold blockWeighted
  rw [shapeCast_ab_1ab_apply, matmul_weighted_apply]
  simp only [truncf_apply, shapeCast_1ab_ab_apply]

/-- Entry (0, 0, d) of what the second body stores is the attended context, at feature d, of the block's rows with
    the block's row of the projected hidden state. -/
theorem k1_pay1_apply (v0 : FVec Ideal S1x2048x512 .f32) (v3 : FVec Ideal S512x512 .bf16) (v6 : FVec Ideal S512 .f32)
    (v10 : FVec Ideal S1x1x512 .f32) (v16 : FVec Ideal S1x512 .bf16) (v19 : FVec Ideal S1 .f32) (d : Fin 512) :
    Gen.k1_pay1 (F := Ideal) v0 v3 v6 v10 v16 v19 (ix3 (0 : Fin 1) (0 : Fin 1) d)
      = attend (fun t k => v0 (ix3 (0 : Fin 1) t k)) (fun k u => v3 (ix2 k u)) (fun u => v6 (ix1 u))
          (fun u => v10 (ix3 (0 : Fin 1) (0 : Fin 1) u)) (fun u => v16 (ix2 (0 : Fin 1) u)) (v19 (ix1 (0 : Fin 1))) d := by
  have hL : (fun t' => blockLogits (blockScores v0 v3 v6 v10) v16 v19 (ix2 (0 : Fin 1) t'))
      = logit (score (fun t k => v0 (ix3 (0 : Fin 1) t k)) (fun k u => v3 (ix2 k u)) (fun u => v6 (ix1 u))
          (fun u => v10 (ix3 (0 : Fin 1) (0 : Fin 1) u))) (fun u => v16 (ix2 (0 : Fin 1) u)) (v19 (ix1 (0 : Fin 1))) := by
    funext t'
    rw [blockLogits_apply]
    simp only [blockScores_apply]
  rw [k1_pay1_eq_stages, blockWeighted_apply]
  unfold attend
  refine Finset.sum_congr rfl fun t _ => ?_
  rw [blockSoftmax_apply, hL]

end Cert.Attention

end
-- ==== Proof.HiddenArray.lean ====
/-
  The first kernel's output array: the hidden states' projection.

  When the first kernel is entered the program has only cast two weight matrices to the matmul format and re-laid the
  scoring vector; the hidden states and the second bias are as launched, and the kernel's weight operand is the cast of
  the second weight matrix — the same numbers on the extended reals. The kernel has one grid point, and every block is a
  whole array at offset zero, so the one block it writes back is the whole output array: entry (b, u) of it is
  Σ_k h[b, k] · W2[k, u] + b2[u], the projection the specification calls `projRow`.
-/
import proofs.«126080_j25262997635763_2_alg».proof.Proof.Gen.KernelIdeal.Frame
import proofs.«126080_j25262997635763_2_alg».proof.Proof.KernelStages
import Idealize.ShloMosaic.Lib.Pipeline.Value
import Idealize.ShloMosaic.Lib.StableHlo.Run

set_option maxRecDepth 16384

noncomputable section

namespace Cert.KernelIdeal.Arrays

open Idealize.ShloMosaic Idealize.ShloMosaic.TcCoe Idealize.SL.Sem Idealize.ShloMosaic.StableHlo Idealize.ShloMosaic.ValueIdx
open Idealize.ShloMosaic.Pipeline (Dat)
open Cert.KernelIdeal Cert.KernelIdeal.Gen Cert.Attention

variable (m : (ℓ : Loc nD τ sig) → Buf (Elt Ideal) ℓ) (ρ : Dev nD → PrngReg)

/-! ## The argument arrays as launched -/

/-- The context rows, [64, 2048, 512]. -/
abbrev argC (c : Dev nD) : FVec Ideal S64x2048x512 .f32 := m ((c : Thread nD τ).loc main_arg0)
/-- The hidden states, [64, 512]. -/
abbrev argH (c : Dev nD) : FVec Ideal S64x512 .f32 := m ((c : Thread nD τ).loc main_arg1)
/-- The context projection's weights and bias. -/
abbrev argW1 (c : Dev nD) : FVec Ideal S512x512 .f32 := m ((c : Thread nD τ).loc main_arg2)
abbrev argB1 (c : Dev nD) : FVec Ideal S512 .f32 := m ((c : Thread nD τ).loc main_arg3)
/-- The hidden projection's weights and bias. -/
abbrev argW2 (c : Dev nD) : FVec Ideal S512x512 .f32 := m ((c : Thread nD τ).loc main_arg4)
abbrev argB2 (c : Dev nD) : FVec Ideal S512 .f32 := m ((c : Thread nD τ).loc main_arg5)
/-- The scoring vector, [512, 1], and its bias, [1]. -/
abbrev argV (c : Dev nD) : FVec Ideal S512x1 .f32 := m ((c : Thread nD τ).loc main_arg6)
abbrev argVb (c : Dev nD) : FVec Ideal S1 .f32 := m ((c : Thread nD τ).loc main_arg7)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## What the first kernel is entered from -/

/-- The hidden states are as launched. -/
theorem entry0_h (c : Dev nD) : (V1 m ρ c main_arg1 : FVec Ideal S64x512 .f32) = argH m c := by
  show StableHlo.after hostOps0 (W0 m ρ c) (Proc.devRef .tc main_arg1) = _
  after_results

/-- The kernel's weight operand is the cast of the second weight matrix. -/
theorem entry0_w2 (c : Dev nD) :
    (V1 m ρ c main_v1 : FVec Ideal S512x512 .bf16) = (truncf .bf16 (argW2 m c) bitsLt_bf16_f32 : FVec Ideal S512x512 .bf16) := by
  show StableHlo.after hostOps0 (W0 m ρ c) (Proc.devRef .tc main_v1) = _
  after_results

/-- The second bias is as launched. -/
theorem entry0_b2 (c : Dev nD) : (V1 m ρ c main_arg5 : FVec Ideal S512 .f32) = argB2 m c := by
  show StableHlo.after hostOps0 (W0 m ρ c) (Proc.devRef .tc main_arg5) = _
  after_results

/-! ## Its blocks: whole arrays -/

/-- Every block index of the first kernel is zero, at its one grid point. -/
theorem idx0_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0 :=
  (by decide +kernel : ∀ t : Fin grid0.N, _)

/-- The hidden states' block is the whole array. -/
theorem blk0_h (c : Dev nD) (t : Fin cfg0.N) : (iblk0 (V1 m ρ) c 0 t : FVec Ideal S64x512 .f32) = argH m c := by
  obtain ⟨e0, e1, -, -, -, -, -⟩ := idx0_facts t
  funext x
  unfold iblk0
  rw [View.read_apply]
  show (V1 m ρ c main_arg1 : FVec Ideal S64x512 .f32) _ = _
  rw [entry0_h]
  refine congrArg (argH m c) (funext fun a => Fin.ext ?_)
  match a with
  | ⟨0, _⟩ => show win0_0.index t (0 : Fin 2) * 64 + 1 * (x 0).val = (x 0).val; omega
  | ⟨1, _⟩ => show win0_0.index t (1 : Fin 2) * 512 + 1 * (x 1).val = (x 1).val; omega

/-- The weights' block is the whole cast matrix: entry by entry the second weight matrix. -/
theorem blk0_w2 (c : Dev nD) (t : Fin cfg0.N) (x : S512x512.Idx) :
    (iblk0 (V1 m ρ) c 1 t : FVec Ideal S512x512 .bf16) x = argW2 m c x := by
  obtain ⟨-, -, e0, e1, -, -, -⟩ := idx0_facts t
  unfold iblk0
  rw [View.read_apply]
  show (V1 m ρ c main_v1 : FVec Ideal S512x512 .bf16) _ = _
  rw [entry0_w2, truncf_apply]
  refine congrArg (argW2 m c) (funext fun a => Fin.ext ?_)
  match a with
  | ⟨0, _⟩ => show win0_1.index t (0 : Fin 2) * 512 + 1 * (x 0).val = (x 0).val; omega
  | ⟨1, _⟩ => show win0_1.index t (1 : Fin 2) * 512 + 1 * (x 1).val = (x 1).val; omega

/-- The bias's block is the whole bias. -/
theorem blk0_b2 (c : Dev nD) (t : Fin cfg0.N) : (iblk0 (V1 m ρ) c 2 t : FVec Ideal S512 .f32) = argB2 m c := by
  obtain ⟨-, -, -, -, e0, -, -⟩ := idx0_facts t
  funext x
  unfold iblk0
  rw [View.read_apply]
  show (V1 m ρ c main_arg5 : FVec Ideal S512 .f32) _ = _
  rw [entry0_b2]
  refine congrArg (argB2 m c) (funext fun a => Fin.ext ?_)
  match a with
  | ⟨0, _⟩ => show win0_2.index t (0 : Fin 1) * 512 + 1 * (x 0).val = (x 0).val; omega

/-! ## Its output array -/

/-- The hidden states' projection, as the first kernel's whole output array. -/
def hiddenProj (c : Dev nD) : FVec Ideal S64x512 .f32 := fun i =>
  projRow (fun k => argH m c (ix2 (i 0) k)) (fun k u => argW2 m c (ix2 k u)) (fun u => argB2 m c (ix1 u)) (i 1)

/-- What the one grid point writes back is the whole projection. -/
theorem flushed0 (c : Dev nD) (t : Fin cfg0.N) :
    (dat0 (V1 m ρ) c).flushed 3 t = ((cfg0.win 3).blk t).view.read (Elt Ideal) (hiddenProj m c) := by
  obtain ⟨-, -, -, -, -, e0, e1⟩ := idx0_facts t
  show (cfg0.win 3).cut (grid0.coords t) ((dat0 (V1 m ρ) c).after 3 t) = _
  rw [after0_3]
  unfold out0_3
  rw [View.canon_unit_zero hz2]
  simp only [View.ld_unit_zero (S := S64x512) hz2, View.ld_unit_zero (S := S512x512) hz2, View.ld_unit_zero (S := S512) hz1]
  funext j
  show k0_pay1 (F := Ideal) (iblk0 (V1 m ρ) c 0 t) (iblk0 (V1 m ρ) c 1 t) (iblk0 (V1 m ρ) c 2 t) j
    = hiddenProj m c (((cfg0.win 3).blk t).view.emb j)
  obtain ⟨p, q, rfl⟩ : ∃ (p : Fin 64) (q : Fin 512), j = ix2 p q := ⟨j 0, j 1, eq_ix2 j⟩
  refine (k0_pay1_apply _ _ _ p q).trans ?_
  rw [blk0_h, blk0_b2]
  simp only [blk0_w2]
  have hemb : ((cfg0.win 3).blk t).view.emb (ix2 p q) = ix2 p q := funext fun a => Fin.ext (by
    match a with
    | ⟨0, _⟩ => show win0_3.index t (0 : Fin 2) * 64 + 1 * p.val = p.val; omega
    | ⟨1, _⟩ => show win0_3.index t (1 : Fin 2) * 512 + 1 * q.val = q.val; omega)
  rw [hemb]
  rfl

/-- Every entry of the output array is in the one point's block. -/
theorem cover0 (c : Dev nD) (i : S64x512.Idx) :
    ∃ t : Fin cfg0.N, (cfg0.win 3).flush t = true ∧ i ∈ ((cfg0.win 3).blk t).view.set := by
  refine ⟨t0_0, flush0_3 t0_0, ?_⟩
  obtain ⟨-, -, -, -, -, e0, e1⟩ := idx0_facts t0_0
  show i ∈ ((View.whole main_v4).slice (win0_3.rect t0_0)).set
  rw [View.set_slice_whole, Rect.mem_set_unit]
  intro a
  have h0 : (i 0).val < 64 := (i 0).isLt
  have h1 : (i 1).val < 512 := (i 1).isLt
  match a with
  | ⟨0, _⟩ => show win0_3.index t0_0 (0 : Fin 2) * 64 ≤ (i 0).val ∧ (i 0).val < win0_3.index t0_0 (0 : Fin 2) * 64 + 64; omega
  | ⟨1, _⟩ => show win0_3.index t0_0 (1 : Fin 2) * 512 ≤ (i 1).val ∧ (i 1).val < win0_3.index t0_0 (1 : Fin 2) * 512 + 512; omega

/-- After the first kernel its output array holds the hidden states' projection. -/
theorem final0 (c : Dev nD) : ((dat0 (V1 m ρ) c).arrAt 3 cfg0.N : FVec Ideal S64x512 .f32) = hiddenProj m c :=
  (dat0 (V1 m ρ) c).arrAt_eq_of_cover 3 (hiddenProj m c) (fun t _ => flushed0 m ρ c t) (cover0 c)

end Cert.KernelIdeal.Arrays

end
-- ==== Proof.KernelRun.lean ====
/-
  The idealized kernel's run, with its result named.

  The program is five stretches in a row: casts of the three weight matrices to the matmul format (and a re-laying of the
  scoring vector as a row), the first kernel (the projection of the hidden state, one grid point), a broadcast of that
  projection to one row per batch, the second kernel (one grid point per batch: scores, softmax over time, weighted sum of
  the context rows), and a last re-laying of the [64, 1, 512] output as [64, 512]. The buffer contents at the boundaries
  between the stretches are a fold through the program from the launch memory; the last of them, `W5`, is what every
  unscoped buffer holds when the program returns.

  The frame statement keeps of that final state only that the eight argument arrays are as launched. Here the same run is
  stated with one more fact read off the same final state: the result buffer holds `W5` at that buffer. The other modules
  of this proof read `W5` there back, stretch by stretch, to one function of the argument arrays.
-/
import proofs.«126080_j25262997635763_2_alg».proof.Proof.Gen.KernelIdeal.Frame

set_option maxRecDepth 16384

noncomputable section

namespace Cert.KernelIdeal.NamedRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from a memory with zero counters terminates without a fault, and in every
    final state the result buffer holds the last boundary's contents at that buffer, and the eight argument arrays are
    as launched. The result buffer is unscoped, so the final thread state — every unscoped buffer at the last
    boundary's contents — speaks of it exactly as it speaks of the arguments. -/
theorem run_named : θ_run defs (onTc (τ := τ) (main (F := F))) ⟨m, fun _ => 0, ρ⟩ (fun r => ∀ c : Dev nD,
      r.2.mem ((c.tc : Thread nD τ).loc main_v7) = W5 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v7 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.NamedRun

end
-- ==== Proof.AttendArray.lean ====
/-
  The second kernel's output array, and the kernel program's result.

  The second kernel is entered after the first kernel's output has been broadcast to one row per batch entry. Of what it
  reads, the context rows, the first bias and the scoring bias are as launched; the weight operand and the scoring row
  are casts (and, for the scoring row, a re-laying of the [512, 1] vector as [1, 512]) of launched arrays, the same
  numbers on the extended reals; and the [64, 1, 512] operand holds the hidden states' projection, row b for batch entry b.

  Its grid has one point per batch entry. At point t the context block is rows (t, ·, ·) of the context array, the
  hidden block is row t of the projection, the other blocks are whole arrays, and the block written back is row
  (t, 0, ·) of the output. So what point t writes is the attended context of batch entry t, the blocks cover the output
  array, and the output array is the specification's result laid as [64, 1, 512]. The last stretch re-lays it as
  [64, 512]: entry (b, d) of the result is entry (b, 0, d) of that array.
-/
import proofs.«126080_j25262997635763_2_alg».proof.Proof.HiddenArray
import proofs.«126080_j25262997635763_2_alg».proof.Proof.KernelRun
import Idealize.ShloMosaic.Lib.ValueLayout

set_option maxRecDepth 16384

noncomputable section

namespace Cert.KernelIdeal.Arrays

open Idealize.ShloMosaic Idealize.ShloMosaic.TcCoe Idealize.SL.Sem Idealize.ShloMosaic.StableHlo Idealize.ShloMosaic.ValueIdx
open Idealize.ShloMosaic.Pipeline (Dat)
open Cert.KernelIdeal Cert.KernelIdeal.Gen Cert.Attention

variable (m : (ℓ : Loc nD τ sig) → Buf (Elt Ideal) ℓ) (ρ : Dev nD → PrngReg)

/-! ## What the second kernel is entered from -/

/-- The context rows are as launched. -/
theorem entry1_c (c : Dev nD) : (V3 m ρ c main_arg0 : FVec Ideal S64x2048x512 .f32) = argC m c := by
  show StableHlo.after hostOps1 (W2 m ρ c) (Proc.devRef .tc main_arg0) = _
  after_results
  rw [W2_of_ne m ρ c main_arg0 (by decide)]
  show StableHlo.after hostOps0 (W0 m ρ c) (Proc.devRef .tc main_arg0) = _
  after_results

/-- The [64, 1, 512] operand is the hidden states' projection with a unit axis put in. -/
theorem entry1_ph (c : Dev nD) : (V3 m ρ c main_v5 : FVec Ideal S64x1x512 .f32)
    = broadcastInDim S64x1x512 ![0, 2] bcast_S64x512_S64x1x512_0_2 (hiddenProj m c) := by
  show StableHlo.after hostOps1 (W2 m ρ c) (Proc.devRef .tc main_v5) = _
  after_results
  rw [show W2 m ρ c (Proc.devRef .tc main_v4) = (dat0 (V1 m ρ) c).arrAt 3 cfg0.N from W2_arr m ρ c 3]
  exact congrArg _ (final0 m ρ c)

/-- The weight operand is the cast of the first weight matrix. -/
theorem entry1_w1 (c : Dev nD) :
    (V3 m ρ c main_v0 : FVec Ideal S512x512 .bf16) = (truncf .bf16 (argW1 m c) bitsLt_bf16_f32 : FVec Ideal S512x512 .bf16) := by
  show StableHlo.after hostOps1 (W2 m ρ c) (Proc.devRef .tc main_v0) = _
  after_results
  rw [W2_of_ne m ρ c main_v0 (by decide)]
  show StableHlo.after hostOps0 (W0 m ρ c) (Proc.devRef .tc main_v0) = _
  after_results

/-- The first bias is as launched. -/
theorem entry1_b1 (c : Dev nD) : (V3 m ρ c main_arg3 : FVec Ideal S512 .f32) = argB1 m c := by
  show StableHlo.after hostOps1 (W2 m ρ c) (Proc.devRef .tc main_arg3) = _
  after_results
  rw [W2_of_ne m ρ c main_arg3 (by decide)]
  show StableHlo.after hostOps0 (W0 m ρ c) (Proc.devRef .tc main_arg3) = _
  after_results

/-- The scoring row: entry (0, u) is entry (u, 0) of the scoring vector. -/
theorem entry1_v (c : Dev nD) (u : Fin 512) :
    (V3 m ρ c main_v3 : FVec Ideal S1x512 .bf16) (ix2 (0 : Fin 1) u) = argV m c (ix2 u (0 : Fin 1)) := by
  have e : (V3 m ρ c main_v3 : FVec Ideal S1x512 .bf16)
      = (truncf .bf16 (shapeCast S1x512 (argV m c) shapeCasts_S512x1_S1x512 : FVec Ideal S1x512 .f32) bitsLt_bf16_f32 : FVec Ideal S1x512 .bf16) := by
    show StableHlo.after hostOps1 (W2 m ρ c) (Proc.devRef .tc main_v3) = _
    after_results
    rw [W2_of_ne m ρ c main_v3 (by decide)]
    show StableHlo.after hostOps0 (W0 m ρ c) (Proc.devRef .tc main_v3) = _
    after_results
    rfl
  rw [e, truncf_apply]
  refine shapeCast_apply _ _ _ (ix2 u (0 : Fin 1)) ?_
  rw [Shape.rowMajor_val_two, Shape.rowMajor_val_two]
  show u.val * 1 + 0 = 0 * 512 + u.val
  omega

/-- The scoring bias is as launched. -/
theorem entry1_vb (c : Dev nD) : (V3 m ρ c main_arg7 : FVec Ideal S1 .f32) = argVb m c := by
  show StableHlo.after hostOps1 (W2 m ρ c) (Proc.devRef .tc main_arg7) = _
  after_results
  rw [W2_of_ne m ρ c main_arg7 (by decide)]
  show StableHlo.after hostOps0 (W0 m ρ c) (Proc.devRef .tc main_arg7) = _
  after_results

/-! ## Its blocks -/

/-- The block index maps, over the 64 grid points: the context block, the hidden block and the output block move with
    the point along the batch axis; every other block index is zero. -/
theorem idx1_facts : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 3) = t.val ∧ win1_6.index t (1 : Fin 3) = 0 ∧ win1_6.index t (2 : Fin 3) = 0 :=
  (by decide +kernel : ∀ t : Fin grid1.N, _)

/-- The batch entry a grid point works on: the point's own number. -/
def batchOf (t : Fin cfg1.N) : Fin 64 := ⟨t.val, by have h := t.isLt; have hN : cfg1.N = 64 := N_1; omega⟩

/-- The context block at point t: rows (t, ·, ·) of the context array. -/
theorem blk1_c (c : Dev nD) (t : Fin cfg1.N) (t' : Fin 2048) (k : Fin 512) :
    (iblk1 (V3 m ρ) c 0 t : FVec Ideal S1x2048x512 .f32) (ix3 (0 : Fin 1) t' k) = argC m c (ix3 (batchOf t) t' k) := by
  obtain ⟨e0, e1, e2, -⟩ := idx1_facts t
  unfold iblk1
  rw [View.read_apply]
  show (V3 m ρ c main_arg0 : FVec Ideal S64x2048x512 .f32) _ = _
  rw [entry1_c]
  refine congrArg (argC m c) (funext fun a => Fin.ext ?_)
  match a with
  | ⟨0, _⟩ => show win1_0.index t (0 : Fin 3) * 1 + 1 * 0 = t.val; omega
  | ⟨1, _⟩ => show win1_0.index t (1 : Fin 3) * 2048 + 1 * t'.val = t'.val; omega
  | ⟨2, _⟩ => show win1_0.index t (2 : Fin 3) * 512 + 1 * k.val = k.val; omega

/-- The hidden block at point t: row t of the hidden states' projection. -/
theorem blk1_ph (c : Dev nD) (t : Fin cfg1.N) (u : Fin 512) :
    (iblk1 (V3 m ρ) c 1 t : FVec Ideal S1x1x512 .f32) (ix3 (0 : Fin 1) (0 : Fin 1) u) = hiddenProj m c (ix2 (batchOf t) u) := by
  obtain ⟨-, -, -, e0, e1, e2, -⟩ := idx1_facts t
  unfold iblk1
  rw [View.read_apply]
  show (V3 m ρ c main_v5 : FVec Ideal S64x1x512 .f32) _ = _
  rw [entry1_ph]
  refine broadcastInDim_apply _ _ _ _ (ix2 (batchOf t) u) fun a => ?_
  match a with
  | ⟨0, _⟩ => show t.val = if (64 : ℕ) = 1 then 0 else win1_1.index t (0 : Fin 3) * 1 + 1 * 0; rw [if_neg (by decide)]; omega
  | ⟨1, _⟩ => show u.val = if (512 : ℕ) = 1 then 0 else win1_1.index t (2 : Fin 3) * 512 + 1 * u.val; rw [if_neg (by decide)]; omega

/-- The weight block: the whole cast matrix, entry by entry the first weight matrix. -/
theorem blk1_w1 (c : Dev nD) (t : Fin cfg1.N) (k u : Fin 512) :
    (iblk1 (V3 m ρ) c 2 t : FVec Ideal S512x512 .bf16) (ix2 k u) = argW1 m c (ix2 k u) := by
  obtain ⟨-, -, -, -, -, -, e0, e1, -⟩ := idx1_facts t
  unfold iblk1
  rw [View.read_apply]
  show (V3 m ρ c main_v0 : FVec Ideal S512x512 .bf16) _ = _
  rw [entry1_w1, truncf_apply]
  refine congrArg (argW1 m c) (funext fun a => Fin.ext ?_)
  match a with
  | ⟨0, _⟩ => show win1_2.index t (0 : Fin 2) * 512 + 1 * k.val = k.val; omega
  | ⟨1, _⟩ => show win1_2.index t (1 : Fin 2) * 512 + 1 * u.val = u.val; omega

/-- The first bias's block: the whole bias. -/
theorem blk1_b1 (c : Dev nD) (t : Fin cfg1.N) (u : Fin 512) :
    (iblk1 (V3 m ρ) c 3 t : FVec Ideal S512 .f32) (ix1 u) = argB1 m c (ix1 u) := by
  obtain ⟨-, -, -, -, -, -, -, -, e0, -⟩ := idx1_facts t
  unfold iblk1
  rw [View.read_apply]
  show (V3 m ρ c main_arg3 : FVec Ideal S512 .f32) _ = _
  rw [entry1_b1]
  refine congrArg (argB1 m c) (funext fun a => Fin.ext ?_)
  match a with
  | ⟨0, _⟩ => show win1_3.index t (0 : Fin 1) * 512 + 1 * u.val = u.val; omega

/-- The scoring row's block: the whole row, entry (0, u) the scoring vector's entry (u, 0). -/
theorem blk1_v (c : Dev nD) (t : Fin cfg1.N) (u : Fin 512) :
    (iblk1 (V3 m ρ) c 4 t : FVec Ideal S1x512 .bf16) (ix2 (0 : Fin 1) u) = argV m c (ix2 u (0 : Fin 1)) := by
  obtain ⟨-, -, -, -, -, -, -, -, -, e0, e1, -⟩ := idx1_facts t
  unfold iblk1
  rw [View.read_apply]
  show (V3 m ρ c main_v3 : FVec Ideal S1x512 .bf16) _ = _
  refine Eq.trans (congrArg _ (funext fun a => Fin.ext ?_)) (entry1_v m ρ c u)
  match a with
  | ⟨0, _⟩ => show win1_4.index t (0 : Fin 2) * 1 + 1 * 0 = 0; omega
  | ⟨1, _⟩ => show win1_4.index t (1 : Fin 2) * 512 + 1 * u.val = u.val; omega

/-- The scoring bias's block: the one entry. -/
theorem blk1_vb (c : Dev nD) (t : Fin cfg1.N) :
    (iblk1 (V3 m ρ) c 5 t : FVec Ideal S1 .f32) (ix1 (0 : Fin 1)) = argVb m c (ix1 (0 : Fin 1)) := by
  obtain ⟨-, -, -, -, -, -, -, -, -, -, -, e0, -⟩ := idx1_facts t
  unfold iblk1
  rw [View.read_apply]
  show (V3 m ρ c main_arg7 : FVec Ideal S1 .f32) _ = _
  rw [entry1_vb]
  refine congrArg (argVb m c) (funext fun a => Fin.ext ?_)
  match a with
  | ⟨0, _⟩ => show win1_5.index t (0 : Fin 1) * 1 + 1 * 0 = 0; omega

/-! ## Its output array -/

/-- The specification's result, laid as the second kernel's [64, 1, 512] output array. -/
def attended (c : Dev nD) : FVec Ideal S64x1x512 .f32 := fun i =>
  resultAt (argC m c) (argH m c) (argW1 m c) (argB1 m c) (argW2 m c) (argB2 m c) (argV m c) (argVb m c) (i 0) (i 2)

/-- What point t writes back is row (t, 0, ·) of the specification's result: the attended context of batch entry t. -/
theorem flushed1 (c : Dev nD) (t : Fin cfg1.N) :
    (dat1 (V3 m ρ) c).flushed 6 t = ((cfg1.win 6).blk t).view.read (Elt Ideal) (attended m c) := by
  obtain ⟨-, -, -, -, -, -, -, -, -, -, -, -, e0, e1, e2⟩ := idx1_facts t
  show (cfg1.win 6).cut (grid1.coords t) ((dat1 (V3 m ρ) c).after 6 t) = _
  rw [after1_6]
  unfold out1_6
  rw [View.canon_unit_zero hz3]
  simp only [View.ld_unit_zero (S := S1x2048x512) hz3, View.ld_unit_zero (S := S1x1x512) hz3,
    View.ld_unit_zero (S := S512x512) hz2, View.ld_unit_zero (S := S512) hz1, View.ld_unit_zero (S := S1x512) hz2,
    View.ld_unit_zero (S := S1) hz1]
  funext j
  show k1_pay1 (F := Ideal) (iblk1 (V3 m ρ) c 0 t) (iblk1 (V3 m ρ) c 2 t) (iblk1 (V3 m ρ) c 3 t) (iblk1 (V3 m ρ) c 1 t)
      (iblk1 (V3 m ρ) c 4 t) (iblk1 (V3 m ρ) c 5 t) j
    = attended m c (((cfg1.win 6).blk t).view.emb j)
  obtain ⟨z0, z1, d, rfl⟩ : ∃ (z0 z1 : Fin 1) (d : Fin 512), j = ix3 z0 z1 d := ⟨j 0, j 1, j 2, eq_ix3 j⟩
  obtain rfl : z0 = 0 := Subsingleton.elim _ _
  obtain rfl : z1 = 0 := Subsingleton.elim _ _
  refine (k1_pay1_apply _ _ _ _ _ _ d).trans ?_
  simp only [blk1_c m ρ c t, blk1_ph m ρ c t, blk1_w1 m ρ c t, blk1_b1 m ρ c t, blk1_v m ρ c t, blk1_vb m ρ c t]
  have hemb : ((cfg1.win 6).blk t).view.emb (ix3 (0 : Fin 1) (0 : Fin 1) d) = ix3 (batchOf t) (0 : Fin 1) d :=
    funext fun a => Fin.ext (by
      match a with
      | ⟨0, _⟩ => show win1_6.index t (0 : Fin 3) * 1 + 1 * 0 = t.val; omega
      | ⟨1, _⟩ => show win1_6.index t (1 : Fin 3) * 1 + 1 * 0 = 0; omega
      | ⟨2, _⟩ => show win1_6.index t (2 : Fin 3) * 512 + 1 * d.val = d.val; omega)
  rw [hemb]
  rfl

/-- Every entry (b, 0, d) of the output array is in point b's block. -/
theorem cover1 (c : Dev nD) (i : S64x1x512.Idx) :
    ∃ t : Fin cfg1.N, (cfg1.win 6).flush t = true ∧ i ∈ ((cfg1.win 6).blk t).view.set := by
  have h0 : (i 0).val < 64 := (i 0).isLt
  have h1 : (i 1).val < 1 := (i 1).isLt
  have h2 : (i 2).val < 512 := (i 2).isLt
  let t : Fin cfg1.N := ⟨(i 0).val, by have hN : cfg1.N = 64 := N_1; omega⟩
  refine ⟨t, flush1_6 t, ?_⟩
  obtain ⟨-, -, -, -, -, -, -, -, -, -, -, -, e0, e1, e2⟩ := idx1_facts t
  have e0' : win1_6.index t (0 : Fin 3) = (i 0).val := e0
  show i ∈ ((View.whole main_v6).slice (win1_6.rect t)).set
  rw [View.set_slice_whole, Rect.mem_set_unit]
  intro a
  match a with
  | ⟨0, _⟩ => show win1_6.index t (0 : Fin 3) * 1 ≤ (i 0).val ∧ (i 0).val < win1_6.index t (0 : Fin 3) * 1 + 1; omega
  | ⟨1, _⟩ => show win1_6.index t (1 : Fin 3) * 1 ≤ (i 1).val ∧ (i 1).val < win1_6.index t (1 : Fin 3) * 1 + 1; omega
  | ⟨2, _⟩ => show win1_6.index t (2 : Fin 3) * 512 ≤ (i 2).val ∧ (i 2).val < win1_6.index t (2 : Fin 3) * 512 + 512; omega

/-- After the second kernel its output array holds the specification's result. -/
theorem final1 (c : Dev nD) : ((dat1 (V3 m ρ) c).arrAt 6 cfg1.N : FVec Ideal S64x1x512 .f32) = attended m c :=
  (dat1 (V3 m ρ) c).arrAt_eq_of_cover 6 (attended m c) (fun t _ => flushed1 m ρ c t) (cover1 c)

/-! ## The result buffer -/

/-- When the program returns, the result buffer holds the specification's result of the launched arguments. -/
theorem result_buffer (c : Dev nD) : (W5 m ρ c (Proc.devRef .tc main_v7) : FVec Ideal S64x512 .f32)
    = result (argC m c) (argH m c) (argW1 m c) (argB1 m c) (argW2 m c) (argB2 m c) (argV m c) (argVb m c) := by
  have e : (W5 m ρ c (Proc.devRef .tc main_v7) : FVec Ideal S64x512 .f32)
      = shapeCast S64x512 (attended m c) shapeCasts_S64x1x512_S64x512 := by
    show StableHlo.after hostOps2 (W4 m ρ c) (Proc.devRef .tc main_v7) = _
    after_results
    rw [show W4 m ρ c (Proc.devRef .tc main_v6) = (dat1 (V3 m ρ) c).arrAt 6 cfg1.N from W4_arr m ρ c 6, final1]
    rfl
  rw [e]
  funext i
  obtain ⟨b, d, rfl⟩ : ∃ (b : Fin 64) (d : Fin 512), i = ix2 b d := ⟨i 0, i 1, eq_ix2 i⟩
  refine (shapeCast_apply _ _ _ (ix3 b (0 : Fin 1) d) ?_).trans rfl
  rw [Shape.rowMajor_val_three, Shape.rowMajor_val_two]
  show (b.val * 1 + 0) * 512 + d.val = b.val * 512 + d.val
  omega

/-- The idealized kernel's run: every weakly fair execution terminates without a fault, the result buffer at the
    specification's result of the launched arguments, the arguments unchanged. -/
theorem run : θ_run defs (onTc (τ := τ) (main (F := Ideal))) ⟨m, fun _ => 0, ρ⟩ (fun r => ∀ c : Dev nD,
      r.2.mem ((c.tc : Thread nD τ).loc main_v7)
        = result (argC m c) (argH m c) (argW1 m c) (argB1 m c) (argW2 m c) (argB2 m c) (argV m c) (argVb m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_buffer m ρ c), (h c).2⟩)
    (Cert.KernelIdeal.NamedRun.run_named m ρ)

end Cert.KernelIdeal.Arrays

end
-- ==== Proof.RefStages.lean ====
/-
  The reference program read at an entry of its result.

  The reference computes on whole arrays: the two projections over [64, 2048, 512] and [64, 512], their sum through
  tanh, the logits as a [64, 2048, 1] array, the softmax over the time axis with its maximum and its sum as [64, 1]
  arrays repeated back along time, and the weighted sum of the context rows over time. Read at entry (b, d), stage by
  stage, every stage depends only on batch entry b, and the result is the specification's attended context of that
  entry at feature d. Three things differ in spelling from the specification and are equal on the extended reals with
  no condition on the entries: the logit's products have their two factors in the other order (the product commutes);
  the maximum is taken once more against the starting value of its own fold (a fold of `max` is at least its starting
  value); and both sums start from the zero pattern, which is the number zero.
-/
import proofs.«126080_j25262997635763_2_alg».proof.Proof.Gen.ReferenceIdeal.Read
import proofs.«126080_j25262997635763_2_alg».proof.Proof.Spec
import Idealize.ShloMosaic.PureOps.Ideal.Laws
import Idealize.ShloMosaic.PureOps.Reduce

noncomputable section

namespace Cert.Attention.Ref

open Idealize.ShloMosaic Idealize.ShloMosaic.ValueIdx Cert.ReferenceIdeal Cert.ReferenceIdeal.Gen Cert.ReferenceIdeal.Read Cert.Attention

/-- Two indices of a rank-1, rank-2 or rank-3 shape with the same coordinates are equal. -/
local macro "same_idx1" : tactic => `(tactic| exact funext fun a => Fin.ext (by match a with | ⟨0, _⟩ => rfl))
local macro "same_idx2" : tactic => `(tactic| exact funext fun a => Fin.ext (by match a with | ⟨0, _⟩ => rfl | ⟨1, _⟩ => rfl))
local macro "same_idx3" : tactic => `(tactic| exact funext fun a => Fin.ext (by match a with | ⟨0, _⟩ => rfl | ⟨1, _⟩ => rfl | ⟨2, _⟩ => rfl))

variable (x0 : FVec Ideal S64x2048x512 .f32) (x1 : FVec Ideal S64x512 .f32) (x2 : FVec Ideal S512x512 .f32)
  (x3 : FVec Ideal S512 .f32) (x4 : FVec Ideal S512x512 .f32) (x5 : FVec Ideal S512 .f32)
  (x6 : FVec Ideal S512x1 .f32) (x7 : FVec Ideal S1 .f32)

/-- The context rows of batch entry b. -/
abbrev rowsOf (b : Fin 64) : Fin 2048 → Fin 512 → EReal := fun t k => x0 (ix3 b t k)
/-- The projected hidden state of batch entry b. -/
abbrev hiddenOf (b : Fin 64) : Fin 512 → EReal :=
  projRow (fun k => x1 (ix2 b k)) (fun k u => x4 (ix2 k u)) (fun u => x5 (ix1 u))
/-- The scores of batch entry b. -/
abbrev scoresOf (b : Fin 64) : Fin 2048 → Fin 512 → EReal :=
  score (rowsOf x0 b) (fun k u => x2 (ix2 k u)) (fun u => x3 (ix1 u)) (hiddenOf x1 x4 x5 b)
/-- The logits of batch entry b. -/
abbrev logitsOf (b : Fin 64) : Fin 2048 → EReal :=
  logit (scoresOf x0 x1 x2 x3 x4 x5 b) (fun u => x6 (ix2 u (0 : Fin 1))) (x7 (ix1 (0 : Fin 1)))

/-- Before tanh, entry (b, t, u): the context row's projection plus the hidden state's. -/
theorem pre_apply (b : Fin 64) (t : Fin 2048) (u : Fin 512) :
    val_main_v10 (F := Ideal) x0 x1 x2 x3 x4 x5 (ix3 b t u)
      = projRow (rowsOf x0 b t) (fun k u => x2 (ix2 k u)) (fun u => x3 (ix1 u)) u + hiddenOf x1 x4 x5 b u := by
  have e1 : ∀ k : Fin 512, lidx_main_v0 (ix3 b t u) k = ix3 b t k := fun k => by same_idx3
  have e2 : ∀ k : Fin 512, ridx_main_v0 (ix3 b t u) k = ix2 k u := fun k => by same_idx2
  have e3 : idx_main_v1 (idx_main_v2 (ix3 b t u)) = ix1 u := by same_idx1
  have e4 : ∀ k : Fin 512, lidx_main_v4 (idx_main_v8 (idx_main_v9 (ix3 b t u))) k = ix2 b k := fun k => by same_idx2
  have e5 : ∀ k : Fin 512, ridx_main_v4 (idx_main_v8 (idx_main_v9 (ix3 b t u))) k = ix2 k u := fun k => by same_idx2
  have e6 : idx_main_v5 (idx_main_v6 (idx_main_v8 (idx_main_v9 (ix3 b t u)))) = ix1 u := by same_idx1
  rw [val_main_v10_apply, val_main_v3_apply, val_main_v0_apply, val_main_v2_apply, val_main_v1_apply, val_main_v9_apply,
    val_main_v8_apply, val_main_v7_apply, val_main_v4_apply, val_main_v6_apply, val_main_v5_apply, e3, e6]
  simp only [e1, e2, e4, e5]
  rfl

/-- The score, entry (b, t, u). -/
theorem score_apply (b : Fin 64) (t : Fin 2048) (u : Fin 512) :
    val_main_v11 (F := Ideal) x0 x1 x2 x3 x4 x5 (ix3 b t u) = scoresOf x0 x1 x2 x3 x4 x5 b t u := by
  rw [val_main_v11_apply, pre_apply]
  rfl

/-- The logit, entry (b, t, 0): the reference multiplies score by scoring weight, the specification the other way. -/
theorem logit_apply (b : Fin 64) (t : Fin 2048) :
    val_main_v15 (F := Ideal) x0 x1 x2 x3 x4 x5 x6 x7 (ix3 b t (0 : Fin 1)) = logitsOf x0 x1 x2 x3 x4 x5 x6 x7 b t := by
  have e1 : ∀ k : Fin 512, lidx_main_v12 (ix3 b t (0 : Fin 1)) k = ix3 b t k := fun k => by same_idx3
  have e2 : ∀ k : Fin 512, ridx_main_v12 (ix3 b t (0 : Fin 1)) k = ix2 k (0 : Fin 1) := fun k => by same_idx2
  have e3 : idx_main_v13 (idx_main_v14 (ix3 b t (0 : Fin 1))) = ix1 (0 : Fin 1) := by same_idx1
  rw [val_main_v15_apply, val_main_v12_apply, val_main_v14_apply, val_main_v13_apply, e3]
  simp only [e1, e2, score_apply]
  show (∑ k : Fin 512, scoresOf x0 x1 x2 x3 x4 x5 b t k * x6 (ix2 k (0 : Fin 1))) + x7 (ix1 (0 : Fin 1)) = _
  unfold logitsOf logit
  exact congrArg (· + x7 (ix1 (0 : Fin 1))) (Finset.sum_congr rfl fun k _ => mul_comm _ _)

/-- The time step t put back on the reduced axis of a [64, 1] index (b, 0) is (b, t, 0). -/
theorem lift_time (hR : S64x2048x1.Reduces [1] S64x1) (b : Fin 64) (t : Fin 2048) :
    hR.lift (ix2 b (0 : Fin 1)) t = ix3 b t (0 : Fin 1) := by same_idx3

/-- The maximum over time, entry (b, 0): the fold of `max` over the logits of batch entry b. -/
theorem max_apply (b : Fin 64) :
    val_main_v18 (F := Ideal) x0 x1 x2 x3 x4 x5 x6 x7 (ix2 b (0 : Fin 1)) = rowMax (logitsOf x0 x1 x2 x3 x4 x5 x6 x7 b) := by
  have hR : S64x2048x1.Reduces [1] S64x1 := by decide
  have hfold : val_main_v16 (F := Ideal) x0 x1 x2 x3 x4 x5 x6 x7 (ix2 b (0 : Fin 1))
      = rowMax (logitsOf x0 x1 x2 x3 x4 x5 x6 x7 b) := by
    unfold val_main_v16
    refine (Host.reduce_eq_fold_single FloatOps.maximumf _ _ reducesTo_S64x2048x1_S64x1_d1 hR h_S_ (ix2 b (0 : Fin 1))).trans ?_
    unfold rowMax
    exact congrArg (fun f => Finset.fold max _ f Finset.univ)
      (funext fun t => (congrArg _ (lift_time hR b t)).trans (logit_apply x0 x1 x2 x3 x4 x5 x6 x7 b t))
  rw [val_main_v18_apply, hfold]
  exact max_fold_max_self _ _ _

/-- The shifted exponential, entry (b, t, 0). -/
theorem exp_apply (b : Fin 64) (t : Fin 2048) :
    val_main_v22 (F := Ideal) x0 x1 x2 x3 x4 x5 x6 x7 (ix3 b t (0 : Fin 1))
      = Ideal.exp (logitsOf x0 x1 x2 x3 x4 x5 x6 x7 b t - rowMax (logitsOf x0 x1 x2 x3 x4 x5 x6 x7 b)) := by
  have e : idx_main_v19 (idx_main_v20 (ix3 b t (0 : Fin 1))) = ix2 b (0 : Fin 1) := by same_idx2
  rw [val_main_v22_apply, val_main_v21_apply, val_main_v20_apply, val_main_v19_apply, e, max_apply, logit_apply]
  rfl

/-- The softmax's denominator, entry (b, 0): the sum over time of the shifted exponentials, from zero. -/
theorem denom_apply (b : Fin 64) :
    val_main_v23 (F := Ideal) x0 x1 x2 x3 x4 x5 x6 x7 (ix2 b (0 : Fin 1))
      = ∑ t : Fin 2048, Ideal.exp (logitsOf x0 x1 x2 x3 x4 x5 x6 x7 b t - rowMax (logitsOf x0 x1 x2 x3 x4 x5 x6 x7 b)) := by
  have e : ∀ t : Fin 2048, idx_main_v23 (ix2 b (0 : Fin 1)) t = ix3 b t (0 : Fin 1) := fun t => by same_idx3
  rw [val_main_v23_apply]
  simp only [e, exp_apply]
  show Ideal.ofBits .f32 0x00000000#32 + _ = _
  rw [Ideal.ofBits_zero_f32, zero_add]

/-- The softmax weight, entry (b, t, 0). -/
theorem weight_apply (b : Fin 64) (t : Fin 2048) :
    val_main_v26 (F := Ideal) x0 x1 x2 x3 x4 x5 x6 x7 (ix3 b t (0 : Fin 1))
      = softmaxRow (logitsOf x0 x1 x2 x3 x4 x5 x6 x7 b) t := by
  have e : idx_main_v24 (idx_main_v25 (ix3 b t (0 : Fin 1))) = ix2 b (0 : Fin 1) := by same_idx2
  rw [val_main_v26_apply, val_main_v25_apply, val_main_v24_apply, e, denom_apply, exp_apply]
  rfl

/-- The reference's result at entry (b, d) is the specification's. -/
theorem result_apply (b : Fin 64) (d : Fin 512) :
    val_main_v29 (F := Ideal) x0 x1 x2 x3 x4 x5 x6 x7 (ix2 b d) = resultAt x0 x1 x2 x3 x4 x5 x6 x7 b d := by
  have e1 : ∀ t : Fin 2048, idx_main_v29 (ix2 b d) t = ix3 b t d := fun t => by same_idx3
  have e2 : ∀ t : Fin 2048, idx_main_v27 (ix3 b t d) = ix3 b t (0 : Fin 1) := fun t => by same_idx3
  rw [val_main_v29_apply]
  simp only [e1, val_main_v28_apply, val_main_v27_apply, e2, weight_apply]
  show Ideal.ofBits .f32 0x00000000#32 + _ = _
  rw [Ideal.ofBits_zero_f32, zero_add]
  rfl

/-- The reference's result array is the specification's. -/
theorem result_eq : val_main_v29 (F := Ideal) x0 x1 x2 x3 x4 x5 x6 x7 = result x0 x1 x2 x3 x4 x5 x6 x7 := by
  funext i
  obtain ⟨b, d, rfl⟩ : ∃ (b : Fin 64) (d : Fin 512), i = ix2 b d := ⟨i 0, i 1, eq_ix2 i⟩
  exact result_apply x0 x1 x2 x3 x4 x5 x6 x7 b d

end Cert.Attention.Ref

end
-- ==== Proof.lean ====
/-
  Additive attention: a two-kernel program against the whole-array reference, equal on the extended reals.

  Both programs compute, for each of 64 batch entries b and each of 512 features d,
    out[b, d] = Σ_t softmax_t(logit[b, ·])[t] · c[b, t, d],
    logit[b, t] = Σ_u tanh((c[b, t, ·] · W1 + b1)[u] + (h[b, ·] · W2 + b2)[u]) · v[u] + vb,
  the softmax taken over the 2048 time steps with the row's maximum subtracted first.

  The kernel program projects the hidden states in a first kernel (one grid point, whole arrays), broadcasts that
  projection to one row per batch entry, and runs a second kernel with one grid point per batch entry, which writes row
  (b, 0, ·) of a [64, 1, 512] array; a last re-laying gives [64, 512]. Its weights pass through casts to the matmul format,
  which are the identity on the extended reals. The reference computes the same formula on whole arrays.

  The proof reads each program at an entry (b, d) of its result and finds the same function of the eight argument
  arrays there (Proof/Spec.lean): Proof/RefStages.lean for the reference, through the generated readings of its
  operations; Proof/KernelStages.lean for the two kernel bodies' arithmetic, over Proof/MatmulAt.lean; Proof/HiddenArray.lean
  and Proof/AttendArray.lean for what each kernel's blocks are and how they cover its output array, on top of the run of
  the whole program with its result named (Proof/KernelRun.lean). The two sides differ by the order of the factors in the
  logit's products, by one extra maximum against the starting value of the reference's own fold, and by sums that start
  from zero; none of these needs an entry to be finite, so the precondition is not used for the values.

  The three frame claims are the generated frames of the two kernel programs and the reference's generated run with its
  result dropped; the idealization rewrote nothing, so there is nothing for it to preserve.
-/
import proofs.«126080_j25262997635763_2_alg».proof.Defs
import proofs.«126080_j25262997635763_2_alg».proof.Proof.Gen.Kernel
import proofs.«126080_j25262997635763_2_alg».proof.Proof.Gen.Kernel.Frame
import proofs.«126080_j25262997635763_2_alg».proof.Proof.Gen.KernelIdeal
import proofs.«126080_j25262997635763_2_alg».proof.Proof.Gen.KernelIdeal.Frame
import proofs.«126080_j25262997635763_2_alg».proof.Proof.Gen.ReferenceIdeal
import proofs.«126080_j25262997635763_2_alg».proof.Proof.Gen.Pre_finite_inputs
import proofs.«126080_j25262997635763_2_alg».proof.Proof.Gen.ReferenceIdeal.Run
import proofs.«126080_j25262997635763_2_alg».proof.Proof.Gen.ReferenceIdeal.Read
import proofs.«126080_j25262997635763_2_alg».proof.Proof.AttendArray
import proofs.«126080_j25262997635763_2_alg».proof.Proof.RefStages
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the eight arguments both idealized programs end with the specification's result of those
    arguments: the kernel program by its run read block by block, the reference by its run read stage by stage. -/
theorem algebraic : Cert.algebraic_KernelIdeal_ReferenceIdeal := by
  intro m ρ m' ρ' _ hagree
  refine ⟨fun c => Cert.Attention.result
      (Cert.KernelIdeal.Arrays.argC m c) (Cert.KernelIdeal.Arrays.argH m c) (Cert.KernelIdeal.Arrays.argW1 m c)
      (Cert.KernelIdeal.Arrays.argB1 m c) (Cert.KernelIdeal.Arrays.argW2 m c) (Cert.KernelIdeal.Arrays.argB2 m c)
      (Cert.KernelIdeal.Arrays.argV m c) (Cert.KernelIdeal.Arrays.argVb m c),
    Cert.KernelIdeal.Arrays.run m ρ, ?_⟩
  refine (θ_run Cert.ReferenceIdeal.defs _ _).mono (fun _ h c => ⟨?_, (h c).2⟩)
    (Cert.ReferenceIdeal.Value.run (F := Ideal) m' ρ')
  obtain ⟨h0, h1, h2, h3, h4, h5, h6, h7⟩ := hagree c
  rw [(h c).1, Cert.ReferenceIdeal.Read.val_main_v29_eq, Cert.Attention.Ref.result_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
